-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S50000x64 : Shape := ⟨2, ![50000, 64]⟩
abbrev S5000x64 : Shape := ⟨2, ![5000, 64]⟩
abbrev S650000x64 : Shape := ⟨2, ![650000, 64]⟩
abbrev S1x64 : Shape := ⟨2, ![1, 64]⟩

abbrev nBuf : Space → Nat
  | .hbm => 121
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S_, .i32⟩
  | .hbm, ⟨20, _⟩ => ⟨S650000, .i32⟩
  | .hbm, ⟨21, _⟩ => ⟨S650000, .i1⟩
  | .hbm, ⟨22, _⟩ => ⟨S_, .i32⟩
  | .hbm, ⟨23, _⟩ => ⟨S650000, .i32⟩
  | .hbm, ⟨24, _⟩ => ⟨S650000, .i32⟩
  | .hbm, ⟨25, _⟩ => ⟨S650000, .i32⟩
  | .hbm, ⟨26, _⟩ => ⟨S650000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S_, .i32⟩
  | .hbm, ⟨46, _⟩ => ⟨S650000, .i32⟩
  | .hbm, ⟨47, _⟩ => ⟨S650000, .i1⟩
  | .hbm, ⟨48, _⟩ => ⟨S_, .i32⟩
  | .hbm, ⟨49, _⟩ => ⟨S650000, .i32⟩
  | .hbm, ⟨50, _⟩ => ⟨S650000, .i32⟩
  | .hbm, ⟨51, _⟩ => ⟨S650000, .i32⟩
  | .hbm, ⟨52, _⟩ => ⟨S650000x1, .i32⟩
  | .hbm, ⟨53, _⟩ => ⟨S650000, .f32⟩
  | .hbm, ⟨54, _⟩ => ⟨S650000, .f32⟩
  | .hbm, ⟨55, _⟩ => ⟨S50000x128, .f32⟩
  | .hbm, ⟨56, _⟩ => ⟨S_, .i32⟩
  | .hbm, ⟨57, _⟩ => ⟨S650000, .i32⟩
  | .hbm, ⟨58, _⟩ => ⟨S650000, .i1⟩
  | .hbm, ⟨59, _⟩ => ⟨S_, .i32⟩
  | .hbm, ⟨60, _⟩ => ⟨S650000, .i32⟩
  | .hbm, ⟨61, _⟩ => ⟨S650000, .i32⟩
  | .hbm, ⟨62, _⟩ => ⟨S650000, .i32⟩
  | .hbm, ⟨63, _⟩ => ⟨S650000x1, .i32⟩
  | .hbm, ⟨64, _⟩ => ⟨S650000x128, .f32⟩
  | .hbm, ⟨65, _⟩ => ⟨S650000x1, .f32⟩
  | .hbm, ⟨66, _⟩ => ⟨S650000x128, .f32⟩
  | .hbm, ⟨67, _⟩ => ⟨S650000x128, .f32⟩
  | .hbm, ⟨68, _⟩ => ⟨S_, .f32⟩
  | .hbm, ⟨69, _⟩ => ⟨S50000x128, .f32⟩
  | .hbm, ⟨70, _⟩ => ⟨S650000x1, .i32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .i32⟩
  | .hbm, ⟨80, _⟩ => ⟨S650000, .i32⟩
  | .hbm, ⟨81, _⟩ => ⟨S650000, .i1⟩
  | .hbm, ⟨82, _⟩ => ⟨S_, .i32⟩
  | .hbm, ⟨83, _⟩ => ⟨S650000, .i32⟩
  | .hbm, ⟨84, _⟩ => ⟨S650000, .i32⟩
  | .hbm, ⟨85, _⟩ => ⟨S650000, .i32⟩
  | .hbm, ⟨86, _⟩ => ⟨S650000x1, .i32⟩
  | .hbm, ⟨87, _⟩ => ⟨S650000x128, .f32⟩
  | .hbm, ⟨88, _⟩ => ⟨S650000x1, .f32⟩
  | .hbm, ⟨89, _⟩ => ⟨S650000x128, .f32⟩
  | .hbm, ⟨90, _⟩ => ⟨S650000x128, .f32⟩
  | .hbm, ⟨91, _⟩ => ⟨S_, .f32⟩
  | .hbm, ⟨92, _⟩ => ⟨S50000x128, .f32⟩
  | .hbm, ⟨93, _⟩ => ⟨S650000x1, .i32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000x128, .f32⟩
  | .hbm, ⟨100, _⟩ => ⟨S50000x128, .f32⟩
  | .hbm, ⟨101, _⟩ => ⟨S50000x64, .f32⟩
  | .hbm, ⟨102, _⟩ => ⟨S_, .i32⟩
  | .hbm, ⟨103, _⟩ => ⟨S650000, .i32⟩
  | .hbm, ⟨104, _⟩ => ⟨S650000, .i1⟩
  | .hbm, ⟨105, _⟩ => ⟨S_, .i32⟩
  | .hbm, ⟨106, _⟩ => ⟨S650000, .i32⟩
  | .hbm, ⟨107, _⟩ => ⟨S650000, .i32⟩
  | .hbm, ⟨108, _⟩ => ⟨S650000, .i32⟩
  | .hbm, ⟨109, _⟩ => ⟨S650000x1, .i32⟩
  | .hbm, ⟨110, _⟩ => ⟨S650000x64, .f32⟩
  | .hbm, ⟨111, _⟩ => ⟨S650000x1, .f32⟩
  | .hbm, ⟨112, _⟩ => ⟨S650000x64, .f32⟩
  | .hbm, ⟨113, _⟩ => ⟨S650000x64, .f32⟩
  | .hbm, ⟨114, _⟩ => ⟨S_, .f32⟩
  | .hbm, ⟨115, _⟩ => ⟨S50000x64, .f32⟩
  | .hbm, ⟨116, _⟩ => ⟨S650000x1, .i32⟩
  | .hbm, ⟨117, _⟩ => ⟨S50000x64, .f32⟩
  | .hbm, ⟨118, _⟩ => ⟨S1x64, .f32⟩
  | .hbm, ⟨119, _⟩ => ⟨S50000x64, .f32⟩
  | .hbm, ⟨120, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call2_cst : Ref sig .tc := ⟨.hbm, 98, rfl⟩
abbrev main_call2_v0 : Ref sig .tc := ⟨.hbm, 99, rfl⟩
abbrev main_v70 : Ref sig .tc := ⟨.hbm, 100, rfl⟩
abbrev main_v71 : Ref sig .tc := ⟨.hbm, 101, rfl⟩
abbrev main_c_14 : Ref sig .tc := ⟨.hbm, 102, rfl⟩
abbrev main_v72 : Ref sig .tc := ⟨.hbm, 103, rfl⟩
abbrev main_v73 : Ref sig .tc := ⟨.hbm, 104, rfl⟩
abbrev main_c_15 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_16 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x64_S5000x64_1_0_0_1_n_n_wf : DotDims.WF S5000x128 S128x64 S5000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v70) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S650000x64 : Shape := ⟨2, ![650000, 64]⟩
abbrev S1x64 : Shape := ⟨2, ![1, 64]⟩

abbrev nBuf : Space → Nat
  | .hbm => 201
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S50000, .i32⟩
  | 9 => ⟨S1x600000, .i32⟩
  | 10 => ⟨S600000, .i32⟩
  | 11 => ⟨S650000, .i32⟩
  | 12 => ⟨S1x600000, .i32⟩
  | 13 => ⟨S600000, .i32⟩
  | 14 => ⟨S650000, .i32⟩
  | 15 => ⟨S_, .f32⟩
  | 16 => ⟨S650000, .f32⟩
  | 17 => ⟨S_, .f32⟩
  | 18 => ⟨S50000, .f32⟩
  | 19 => ⟨S_, .i32⟩
  | 20 => ⟨S650000, .i32⟩
  | 21 => ⟨S650000, .i1⟩
  | 22 => ⟨S_, .i32⟩
  | 23 => ⟨S650000, .i32⟩
  | 24 => ⟨S650000, .i32⟩
  | 25 => ⟨S650000, .i32⟩
  | 26 => ⟨S650000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S650000, .i32⟩
  | 38 => ⟨S650000, .i1⟩
  | 39 => ⟨S_, .i32⟩
  | 40 => ⟨S650000, .i32⟩
  | 41 => ⟨S650000, .i32⟩
  | 42 => ⟨S650000, .i32⟩
  | 43 => ⟨S650000x1, .i32⟩
  | 44 => ⟨S650000, .f32⟩
  | 45 => ⟨S_, .i32⟩
  | 46 => ⟨S650000, .i32⟩
  | 47 => ⟨S650000, .i1⟩
  | 48 => ⟨S_, .i32⟩
  | 49 => ⟨S650000, .i32⟩
  | 50 => ⟨S650000, .i32⟩
  | 51 => ⟨S650000, .i32⟩
  | 52 => ⟨S650000x1, .i32⟩
  | 53 => ⟨S650000, .f32⟩
  | 54 => ⟨S650000, .f32⟩
  | 55 => ⟨S50000x128, .f32⟩
  | 56 => ⟨S_, .i32⟩
  | 57 => ⟨S650000, .i32⟩
  | 58 => ⟨S650000, .i1⟩
  | 59 => ⟨S_, .i32⟩
  | 60 => ⟨S650000, .i32⟩
  | 61 => ⟨S650000, .i32⟩
  | 62 => ⟨S650000, .i32⟩
  | 63 => ⟨S650000x1, .i32⟩
  | 64 => ⟨S650000x128, .f32⟩
  | 65 => ⟨S650000x1, .f32⟩
  | 66 => ⟨S650000x128, .f32⟩
  | 67 => ⟨S650000x128, .f32⟩
  | 68 => ⟨S_, .f32⟩
  | 69 => ⟨S50000x128, .f32⟩
  | 70 => ⟨S650000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S_, .f32⟩
  | 79 => ⟨S650000, .f32⟩
  | 80 => ⟨S_, .f32⟩
  | 81 => ⟨S50000, .f32⟩
  | 82 => ⟨S_, .i32⟩
  | 83 => ⟨S650000, .i32⟩
  | 84 => ⟨S650000, .i1⟩
  | 85 => ⟨S_, .i32⟩
  | 86 => ⟨S650000, .i32⟩
  | 87 => ⟨S650000, .i32⟩
  | 88 => ⟨S650000, .i32⟩
  | 89 => ⟨S650000x1, .i32⟩
  | 90 => ⟨S50000, .f32⟩
  | 91 => ⟨S_, .f32⟩
  | 92 => ⟨S50000, .f32⟩
  | 93 => ⟨S50000, .i1⟩
  | 94 => ⟨S50000, .f32⟩
  | 95 => ⟨S_, .f32⟩
  | 96 => ⟨S_, .f32⟩
  | 97 => ⟨S50000, .f32⟩
  | 98 => ⟨S50000, .f32⟩
  | 99 => ⟨S_, .i32⟩
  | 100 => ⟨S650000, .i32⟩
  | 101 => ⟨S650000, .i1⟩
  | 102 => ⟨S_, .i32⟩
  | 103 => ⟨S650000, .i32⟩
  | 104 => ⟨S650000, .i32⟩
  | 105 => ⟨S650000, .i32⟩
  | 106 => ⟨S650000x1, .i32⟩
  | 107 => ⟨S650000, .f32⟩
  | 108 => ⟨S_, .i32⟩
  | 109 => ⟨S650000, .i32⟩
  | 110 => ⟨S650000, .i1⟩
  | 111 => ⟨S_, .i32⟩
  | 112 => ⟨S650000, .i32⟩
  | 113 => ⟨S650000, .i32⟩
  | 114 => ⟨S650000, .i32⟩
  | 115 => ⟨S650000x1, .i32⟩
  | 116 => ⟨S650000, .f32⟩
  | 117 => ⟨S650000, .f32⟩
  | 118 => ⟨S50000x128, .f32⟩
  | 119 => ⟨S_, .i32⟩
  | 120 => ⟨S650000, .i32⟩
  | 121 => ⟨S650000, .i1⟩
  | 122 => ⟨S_, .i32⟩
  | 123 => ⟨S650000, .i32⟩
  | 124 => ⟨S650000, .i32⟩
  | 125 => ⟨S650000, .i32⟩
  | 126 => ⟨S650000x1, .i32⟩
  | 127 => ⟨S650000x128, .f32⟩
  | _ => ⟨S50000x128, .f32⟩

abbrev hbmTy0_1 (i : Nat) : BufTy := match i % 128 with
  | 0 => ⟨S650000x1, .f32⟩
  | 1 => ⟨S650000x128, .f32⟩
  | 2 => ⟨S650000x128, .f32⟩
  | 3 => ⟨S_, .f32⟩
  | 4 => ⟨S50000x128, .f32⟩
  | 5 => ⟨S650000x1, .i32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S_, .f32⟩
  | 14 => ⟨S650000, .f32⟩
  | 15 => ⟨S_, .f32⟩
  | 16 => ⟨S50000, .f32⟩
  | 17 => ⟨S_, .i32⟩
  | 18 => ⟨S650000, .i32⟩
  | 19 => ⟨S650000, .i1⟩
  | 20 => ⟨S_, .i32⟩
  | 21 => ⟨S650000, .i32⟩
  | 22 => ⟨S650000, .i32⟩
  | 23 => ⟨S650000, .i32⟩
  | 24 => ⟨S650000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S650000, .i32⟩
  | 36 => ⟨S650000, .i1⟩
  | 37 => ⟨S_, .i32⟩
  | 38 => ⟨S650000, .i32⟩
  | 39 => ⟨S650000, .i32⟩
  | 40 => ⟨S650000, .i32⟩
  | 41 => ⟨S650000x1, .i32⟩
  | 42 => ⟨S650000, .f32⟩
  | 43 => ⟨S_, .i32⟩
  | 44 => ⟨S650000, .i32⟩
  | 45 => ⟨S650000, .i1⟩
  | 46 => ⟨S_, .i32⟩
  | 47 => ⟨S650000, .i32⟩
  | 48 => ⟨S650000, .i32⟩
  | 49 => ⟨S650000, .i32⟩
  | 50 => ⟨S650000x1, .i32⟩
  | 51 => ⟨S650000, .f32⟩
  | 52 => ⟨S650000, .f32⟩
  | 53 => ⟨S50000x64, .f32⟩
  | 54 => ⟨S_, .i32⟩
  | 55 => ⟨S650000, .i32⟩
  | 56 => ⟨S650000, .i1⟩
  | 57 => ⟨S_, .i32⟩
  | 58 => ⟨S650000, .i32⟩
  | 59 => ⟨S650000, .i32⟩
  | 60 => ⟨S650000, .i32⟩
  | 61 => ⟨S650000x1, .i32⟩
  | 62 => ⟨S650000x64, .f32⟩
  | 63 => ⟨S650000x1, .f32⟩
  | 64 => ⟨S650000x64, .f32⟩
  | 65 => ⟨S650000x64, .f32⟩
  | 66 => ⟨S_, .f32⟩
  | 67 => ⟨S50000x64, .f32⟩
  | 68 => ⟨S650000x1, .i32⟩
  | 69 => ⟨S50000x64, .f32⟩
  | 70 => ⟨S1x64, .f32⟩
  | 71 => ⟨S50000x64, .f32⟩
  | 72 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_c_13 : Ref sig .tc := ⟨.hbm, 82, rfl⟩
abbrev main_v55 : Ref sig .tc := ⟨.hbm, 83, rfl⟩
abbrev main_v56 : Ref sig .tc := ⟨.hbm, 84, rfl⟩
abbrev main_c_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_15 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_16 : Ref sig .tc := ⟨.hbm, 95, rfl⟩
abbrev main_call2_v0 : Ref sig .tc := ⟨.hbm, 96, rfl⟩
abbrev main_call2_v1 : Ref sig .tc := ⟨.hbm, 97, rfl⟩
abbrev main_v65 : Ref sig .tc := ⟨.hbm, 98, rfl⟩
abbrev main_c_17 : Ref sig .tc := ⟨.hbm, 99, rfl⟩
abbrev main_v66 : Ref sig .tc := ⟨.hbm, 100, rfl⟩
abbrev main_v67 : Ref sig .tc := ⟨.hbm, 101, rfl⟩
abbrev main_c_18 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_19 : Ref sig .tc := ⟨.hbm, 108, rfl⟩
abbrev main_v73 : Ref sig .tc := ⟨.hbm, 109, rfl⟩
abbrev main_v74 : Ref sig .tc := ⟨.hbm, 110, rfl⟩
abbrev main_c_20 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_21 : Ref sig .tc := ⟨.hbm, 119, rfl⟩
abbrev main_v82 : Ref sig .tc := ⟨.hbm, 120, rfl⟩
abbrev main_v83 : Ref sig .tc := ⟨.hbm, 121, rfl⟩
abbrev main_c_22 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_23 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_call3_cst : Ref sig .tc := ⟨.hbm, 138, rfl⟩
abbrev main_call3_v0 : Ref sig .tc := ⟨.hbm, 139, rfl⟩
abbrev main_v98 : Ref sig .tc := ⟨.hbm, 140, rfl⟩
abbrev main_cst_24 : Ref sig .tc := ⟨.hbm, 141, rfl⟩
abbrev main_v99 : Ref sig .tc := ⟨.hbm, 142, rfl⟩
abbrev main_cst_25 : Ref sig .tc := ⟨.hbm, 143, rfl⟩
abbrev main_v100 : Ref sig .tc := ⟨.hbm, 144, rfl⟩
abbrev main_c_26 : Ref sig .tc := ⟨.hbm, 145, rfl⟩
abbrev main_v101 : Ref sig .tc := ⟨.hbm, 146, rfl⟩
abbrev main_v102 : Ref sig .tc := ⟨.hbm, 147, rfl⟩
abbrev main_c_27 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_28 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_29 : Ref sig .tc := ⟨.hbm, 158, rfl⟩
abbrev main_call4_v0 : Ref sig .tc := ⟨.hbm, 159, rfl⟩
abbrev main_call4_v1 : Ref sig .tc := ⟨.hbm, 160, rfl⟩
abbrev main_v111 : Ref sig .tc := ⟨.hbm, 161, rfl⟩
abbrev main_c_30 : Ref sig .tc := ⟨.hbm, 162, rfl⟩
abbrev main_v112 : Ref sig .tc := ⟨.hbm, 163, rfl⟩
abbrev main_v113 : Ref sig .tc := ⟨.hbm, 164, rfl⟩
abbrev main_c_31 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_c_32 : Ref sig .tc := ⟨.hbm, 171, rfl⟩
abbrev main_v119 : Ref sig .tc := ⟨.hbm, 172, rfl⟩
abbrev main_v120 : Ref sig .tc := ⟨.hbm, 173, rfl⟩
abbrev main_c_33 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_c_34 : Ref sig .tc := ⟨.hbm, 182, rfl⟩
abbrev main_v128 : Ref sig .tc := ⟨.hbm, 183, rfl⟩
abbrev main_v129 : Ref sig .tc := ⟨.hbm, 184, rfl⟩
abbrev main_c_35 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_36 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

class Facts : Prop extends Facts₀ where

variable [Facts]
-- ==== Proof.KernelRun.lean ====
/-
  The idealized kernel program's run with its result named.

  The program is eleven segments: stretches of host operations around three row-tiled matrix products. The contents of
  every unscoped buffer at each segment boundary are a fold from the launch memory (the generated frame's `W0 … W11`),
  and every weakly fair execution ends with each unscoped buffer at the last boundary's contents. The frame keeps of
  that only the argument arrays; here the result buffer is kept too: it ends at `W11` read at the result's reference.
-/
import proofs.«128326_j47339129536599_1_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and the argument arrays as launched: the launch over the eleven segments, the last thread
    state read against the final state, the result's buffer being one of the unscoped ones. -/
theorem run_result : θ_run defs (onTc (τ := τ) (main (F := F))) ⟨m, fun _ => 0, ρ⟩ (fun r => ∀ c : Dev nD,
      r.2.mem ((c.tc : Thread nD τ).loc main_v87) = W11 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v87 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.RunResult

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.BlockProduct.lean ====
/-
  One row block's product, entry by entry.

  Each of the three kernel bodies multiplies a block of 5000 rows of its first operand by the whole second operand,
  accumulating into the all-zero block. Over the extended reals the narrowing of the operands to a shorter float
  format is the identity, and a reshape to the same shape is the identity, so the entry `(p, q)` of a body's result is
  the sum over the contracted coordinate `k` of the products `x0 (p, k) * x1 (k, q)`.
-/
import proofs.«128326_j47339129536599_1_alg».proof.Proof.Gen.KernelIdeal.Skeleton
import proofs.«128326_j47339129536599_1_alg».proof.Proof.LibMatmulIx
import Idealize.ShloMosaic.Lib.Pipeline.Value
import Idealize.ShloMosaic.Lib.ValueIdx

noncomputable section

open scoped BigOperators

namespace Cert.KernelIdeal.BlockProduct

open Idealize.ShloMosaic Idealize.ShloMosaic.ValueIdx Cert.KernelIdeal

/-- The first body's block: entry `(p, q)` of the 5000 × 128 by 128 × 128 product into the zero block is
    `∑ k, x0 (p, k) * x1 (k, q)`; the two narrowings read through. -/
theorem pay0_apply (x0 : Vec Ideal S5000x128 .f32) (x1 : Vec Ideal S128x128 .f32) (p : Fin 5000) (q : Fin 128) :
    Gen.k0_pay1 (F := Ideal) x0 x1 (ix2 p q) = ∑ k : Fin 128, x0 (ix2 p k) * x1 (ix2 k q) := by
  unfold Gen.k0_pay1
  refine (Cert.LibMatmulIx.matmul_zero_apply (M := 5000) (K := 128) (N := 128) _ none _ _ p q).trans ?_
  rfl

/-- The second body's block: the same product; the reshape of the first operand to its own shape is the identity. -/
theorem pay1_apply (x0 : Vec Ideal S5000x128 .f32) (x1 : Vec Ideal S128x128 .f32) (p : Fin 5000) (q : Fin 128) :
    Gen.k1_pay1 (F := Ideal) x0 x1 (ix2 p q) = ∑ k : Fin 128, x0 (ix2 p k) * x1 (ix2 k q) := by
  unfold Gen.k1_pay1
  refine (Cert.LibMatmulIx.matmul_zero_apply (M := 5000) (K := 128) (N := 128) _ none _ _ p q).trans ?_
  refine Finset.sum_congr rfl fun k _ => ?_
  rw [truncf_apply, truncf_apply, shapeCast_self]

/-- The third body's block: entry `(p, q)` of the 5000 × 128 by 128 × 64 product into the zero block. -/
theorem pay2_apply (x0 : Vec Ideal S5000x128 .f32) (x1 : Vec Ideal S128x64 .f32) (p : Fin 5000) (q : Fin 64) :
    Gen.k2_pay1 (F := Ideal) x0 x1 (ix2 p q) = ∑ k : Fin 128, x0 (ix2 p k) * x1 (ix2 k q) := by
  unfold Gen.k2_pay1
  refine (Cert.LibMatmulIx.matmul_zero_apply (M := 5000) (K := 128) (N := 64) _ none _ _ p q).trans ?_
  refine Finset.sum_congr rfl fun k _ => ?_
  rw [truncf_apply, truncf_apply, shapeCast_self]

end Cert.KernelIdeal.BlockProduct

end
-- ==== Proof.LibHostDotIx.lean ====
/-
  The host's general dot product of two matrices, read at one entry.

  For an `M × K` matrix `A` and a `K × N` matrix `B` whose product contracts the second axis of `A` with the first
  axis of `B` (no batch axis), the entry `(a, b)` of the product is the sum over the contracted coordinate `c` of
  `A (a, c) * B (c, b)`. Stated over the extended reals, for any extents and for any proof that the dimension numbers
  are well formed, so that it applies to every record with these dimension numbers.
-/
import Idealize.ShloMosaic.Lib.ValueIdx
import Idealize.ShloMosaic.PureOps.Ideal.Laws

noncomputable section

open scoped BigOperators

namespace Cert.LibHostDotIx

open Idealize.ShloMosaic Idealize.ShloMosaic.ValueIdx

/-- The host's product of an `M × K` by a `K × N` matrix at entry `(a, b)`: the sum over the contracted coordinate of
    the products of the entries `A (a, c)` and `B (c, b)`. The contraction index has one axis, of extent `K`; the sum
    over it is re-indexed by that axis's coordinate, and the two operand indices are read coordinate by coordinate. -/
theorem dotGeneral_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (F := Ideal) (⟨[1], [0], [0], [1], [], [], w⟩ : DotDims _ _ _) prec A B (ix2 a b)
      = ∑ c : Fin K, A (ix2 a c) * B (ix2 c b) := by
  simp only [Host.dotGeneral]
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDotIx

end
-- ==== Proof.RowBlocks0.lean ====
/-
  The ten row blocks of the first tiled product are one whole matrix product.

  The region runs over ten grid points. At point `t` its body multiplies rows `5000 t … 5000 t + 4999` of the
  50000 × 128 first operand by the whole 128 × 128 second operand and writes the 5000 × 128 result back as rows
  `5000 t … 5000 t + 4999` of the output array. Entry `(p, q)` of the block written at point `t` is
  `∑ k, A (5000 t + p, k) * B (k, q)`, which is entry `(5000 t + p, q)` of the whole product `A · B`; and since
  50000 = 10 · 5000, every row `r` of the output lies in the block of point `r / 5000`. So after the ten points the
  output array is the whole product.
-/
import proofs.«128326_j47339129536599_1_alg».proof.Proof.BlockProduct
import proofs.«128326_j47339129536599_1_alg».proof.Proof.LibHostDotIx
import proofs.«128326_j47339129536599_1_alg».proof.Proof.Gen.KernelIdeal.Frame
import Idealize.ShloMosaic.Lib.Pipeline.Value
import Idealize.ShloMosaic.Lib.ValueIdx

noncomputable section

open scoped BigOperators

namespace Cert.KernelIdeal.RowBlocks

open Idealize.ShloMosaic Idealize.ShloMosaic.ValueIdx Idealize.ShloMosaic.TcCoe Idealize.SL.Sem Cert.KernelIdeal
open Idealize.ShloMosaic.Pipeline (Dat)

/-- The zero offsets of a whole-buffer access, as the constant function. -/
theorem zero_offsets0 : (![0, 0] : Fin 2 → Nat) = fun _ => 0 := funext fun a => by fin_cases a <;> rfl

/-- The printed index maps, decided over the ten points: the first operand's and the output's block index is
    `(t, 0)`, the second operand's is `(0, 0)`. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, q)` of the product of a block `x0` by `x1` is entry `i` of the whole product `A · B`, when `x0` is rows
    `5000 T …` of `A`, `x1` is `B`, and `i = (5000 T + p, q)`: both are `∑ k, A (5000 T + p, k) * B (k, q)`. -/
theorem block_entry0 (w : DotDims.WF S50000x128 S128x128 S50000x128 [1] [0] [0] [1] [] [])
    (A : FVec Ideal S50000x128 .f32) (B : FVec Ideal S128x128 .f32)
    (x0 : Vec Ideal S5000x128 .f32) (x1 : Vec Ideal S128x128 .f32) (T : Nat)
    (hx0 : ∀ (p : Fin 5000) (k : Fin 128) (r : Fin 50000), r.val = T * 5000 + p.val → x0 (ix2 p k) = A (ix2 r k))
    (hx1 : ∀ (k : Fin 128) (q : Fin 128), x1 (ix2 k q) = B (ix2 k q))
    (p : Fin 5000) (q : Fin 128) (i : S50000x128.Idx) (hi0 : (i 0).val = T * 5000 + p.val) (hi1 : (i 1).val = q.val) :
    Gen.k0_pay1 (F := Ideal) x0 x1 (ix2 p q)
      = Host.dotGeneral (F := Ideal) (φ₁ := .f32) (φ₂ := .f32) (⟨[1], [0], [0], [1], [], [], w⟩ : DotDims S50000x128 S128x128 S50000x128) none A B i := by
  obtain ⟨r, s, rfl⟩ : ∃ (r : Fin 50000) (s : Fin 128), i = ix2 r s := ⟨i 0, i 1, eq_ix2 i⟩
  obtain rfl : s = q := Fin.ext hi1
  rw [BlockProduct.pay0_apply, Cert.LibHostDotIx.dotGeneral_apply]
  exact Finset.sum_congr rfl fun k _ => by rw [hx0 p k r hi0, hx1 k s]

/-- The first operand's block at point `t` is rows `5000 t …` of the first operand: a block's coordinate in the array
    is the block index times the block's extent plus the coordinate inside the block. -/
theorem lhs_block0 (V : (c : Dev nD) → (b : Ref sig .tc) → Buf (Elt Ideal) ((c : Thread nD τ).loc b)) (c : Dev nD)
    (t : Fin cfg0.N) (p : Fin 5000) (k : Fin 128) (r : Fin 50000) (hr : r.val = t.val * 5000 + p.val) :
    (Gen.iblk0 (F := Ideal) V c 0 t : Vec Ideal S5000x128 .f32) (ix2 p k)
      = (V c main_arg0 : S50000x128.Idx → EReal) (ix2 r k) := by
  obtain ⟨e0, e1, -, -, -, -⟩ := block_index0 t
  unfold Gen.iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The second operand's block at every point is the whole second operand. -/
theorem rhs_block0 (V : (c : Dev nD) → (b : Ref sig .tc) → Buf (Elt Ideal) ((c : Thread nD τ).loc b)) (c : Dev nD)
    (t : Fin cfg0.N) (k : Fin 128) (q : Fin 128) :
    (Gen.iblk0 (F := Ideal) V c 1 t : Vec Ideal S128x128 .f32) (ix2 k q)
      = (V c main_arg2 : S128x128.Idx → EReal) (ix2 k q) := by
  obtain ⟨-, -, e2, e3, -, -⟩ := block_index0 t
  unfold Gen.iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- WHAT POINT `t` WRITES BACK is block `t` — rows `5000 t …` — of the whole product of the two operand arrays as the
    region finds them. -/
theorem flushed0_eq (w : DotDims.WF S50000x128 S128x128 S50000x128 [1] [0] [0] [1] [] [])
    (V : (c : Dev nD) → (b : Ref sig .tc) → Buf (Elt Ideal) ((c : Thread nD τ).loc b)) (c : Dev nD) (t : Fin cfg0.N) :
    (Gen.dat0 (F := Ideal) V c).flushed 2 t = ((cfg0.win 2).blk t).view.read (Elt Ideal)
      (Host.dotGeneral (F := Ideal) (φ₁ := .f32) (φ₂ := .f32) (⟨[1], [0], [0], [1], [], [], w⟩ : DotDims S50000x128 S128x128 S50000x128) none
        (V c main_arg0) (V c main_arg2) : FVec Ideal S50000x128 .f32) := by
  show (cfg0.win 2).cut (grid0.coords t) ((Gen.dat0 V c).after 2 t) = _
  rw [Gen.after0_2]
  unfold Gen.out0_2
  rw [View.canon_unit_zero zero_offsets0]
  simp only [View.ld_unit_zero (S := S5000x128) zero_offsets0, View.ld_unit_zero (S := S128x128) zero_offsets0]
  obtain ⟨-, -, -, -, e4, e5⟩ := block_index0 t
  refine funext fun (j : S5000x128.Idx) => ?_
  obtain ⟨p, q, rfl⟩ : ∃ (p : Fin 5000) (q : Fin 128), j = ix2 p q := ⟨j 0, j 1, eq_ix2 j⟩
  show Gen.k0_pay1 (F := Ideal) (Gen.iblk0 V c 0 t) (Gen.iblk0 V c 1 t) (ix2 p q)
    = Host.dotGeneral (F := Ideal) (φ₁ := .f32) (φ₂ := .f32) (⟨[1], [0], [0], [1], [], [], w⟩ : DotDims S50000x128 S128x128 S50000x128) none
        (V c main_arg0) (V c main_arg2) (((cfg0.win 2).blk t).view.emb (ix2 p q))
  refine block_entry0 w (V c main_arg0) (V c main_arg2) (Gen.iblk0 V c 0 t) (Gen.iblk0 V c 1 t) t.val
    (fun p k r hr => lhs_block0 V c t p k r hr) (fun k q => rhs_block0 V c t k q) p q _ ?_ ?_
  · show win0_2.index t (0 : Fin 2) * 5000 + 1 * p.val = t.val * 5000 + p.val
    rw [e4]; omega
  · show win0_2.index t (1 : Fin 2) * 128 + 1 * q.val = q.val
    rw [e5]; omega

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v35).slice (win0_2.rect t)).set ↔ _
  rw [View.set_slice_whole, Rect.mem_set_unit]
  exact Iff.rfl

/-- Every index of the output array is in some point's block: row `r` is in the block of point `r / 5000`, because
    50000 = 10 · 5000 and a block spans all 128 columns. -/
theorem cover0 (i : S50000x128.Idx) :
    ∃ t : Fin cfg0.N, (cfg0.win 2).flush t = true ∧ i ∈ ((cfg0.win 2).blk t).view.set := by
  have hN : cfg0.N = 10 := Gen.N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, e4, e5⟩ := block_index0 t
  refine ⟨t, Gen.flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

/-- THE ARRAY the region leaves is the whole product of its two operand arrays as the region finds them. -/
theorem final0 (w : DotDims.WF S50000x128 S128x128 S50000x128 [1] [0] [0] [1] [] [])
    (V : (c : Dev nD) → (b : Ref sig .tc) → Buf (Elt Ideal) ((c : Thread nD τ).loc b)) (c : Dev nD) :
    (Gen.dat0 (F := Ideal) V c).arrAt 2 cfg0.N
      = Host.dotGeneral (F := Ideal) (φ₁ := .f32) (φ₂ := .f32) (⟨[1], [0], [0], [1], [], [], w⟩ : DotDims S50000x128 S128x128 S50000x128) none
          (V c main_arg0) (V c main_arg2) :=
  (Gen.dat0 (F := Ideal) V c).arrAt_eq_of_cover 2 _ (fun t _ => flushed0_eq w V c t) cover0

end Cert.KernelIdeal.RowBlocks

end
-- ==== Proof.RowBlocks1.lean ====
/-
  The ten row blocks of the second tiled product are one whole matrix product.

  The region runs over ten grid points. At point `t` its body multiplies rows `5000 t … 5000 t + 4999` of the
  50000 × 128 first operand by the whole 128 × 128 second operand and writes the 5000 × 128 result back as rows
  `5000 t … 5000 t + 4999` of the output array. Entry `(p, q)` of the block written at point `t` is
  `∑ k, A (5000 t + p, k) * B (k, q)`, which is entry `(5000 t + p, q)` of the whole product `A · B`; and since
  50000 = 10 · 5000, every row `r` of the output lies in the block of point `r / 5000`. So after the ten points the
  output array is the whole product.
-/
import proofs.«128326_j47339129536599_1_alg».proof.Proof.BlockProduct
import proofs.«128326_j47339129536599_1_alg».proof.Proof.LibHostDotIx
import proofs.«128326_j47339129536599_1_alg».proof.Proof.Gen.KernelIdeal.Frame
import Idealize.ShloMosaic.Lib.Pipeline.Value
import Idealize.ShloMosaic.Lib.ValueIdx

noncomputable section

open scoped BigOperators

namespace Cert.KernelIdeal.RowBlocks

open Idealize.ShloMosaic Idealize.ShloMosaic.ValueIdx Idealize.ShloMosaic.TcCoe Idealize.SL.Sem Cert.KernelIdeal
open Idealize.ShloMosaic.Pipeline (Dat)

/-- The zero offsets of a whole-buffer access, as the constant function. -/
theorem zero_offsets1 : (![0, 0] : Fin 2 → Nat) = fun _ => 0 := funext fun a => by fin_cases a <;> rfl

/-- The printed index maps, decided over the ten points: the first operand's and the output's block index is
    `(t, 0)`, the second operand's is `(0, 0)`. -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry `(p, q)` of the product of a block `x0` by `x1` is entry `i` of the whole product `A · B`, when `x0` is rows
    `5000 T …` of `A`, `x1` is `B`, and `i = (5000 T + p, q)`: both are `∑ k, A (5000 T + p, k) * B (k, q)`. -/
theorem block_entry1 (w : DotDims.WF S50000x128 S128x128 S50000x128 [1] [0] [0] [1] [] [])
    (A : FVec Ideal S50000x128 .f32) (B : FVec Ideal S128x128 .f32)
    (x0 : Vec Ideal S5000x128 .f32) (x1 : Vec Ideal S128x128 .f32) (T : Nat)
    (hx0 : ∀ (p : Fin 5000) (k : Fin 128) (r : Fin 50000), r.val = T * 5000 + p.val → x0 (ix2 p k) = A (ix2 r k))
    (hx1 : ∀ (k : Fin 128) (q : Fin 128), x1 (ix2 k q) = B (ix2 k q))
    (p : Fin 5000) (q : Fin 128) (i : S50000x128.Idx) (hi0 : (i 0).val = T * 5000 + p.val) (hi1 : (i 1).val = q.val) :
    Gen.k1_pay1 (F := Ideal) x0 x1 (ix2 p q)
      = Host.dotGeneral (F := Ideal) (φ₁ := .f32) (φ₂ := .f32) (⟨[1], [0], [0], [1], [], [], w⟩ : DotDims S50000x128 S128x128 S50000x128) none A B i := by
  obtain ⟨r, s, rfl⟩ : ∃ (r : Fin 50000) (s : Fin 128), i = ix2 r s := ⟨i 0, i 1, eq_ix2 i⟩
  obtain rfl : s = q := Fin.ext hi1
  rw [BlockProduct.pay1_apply, Cert.LibHostDotIx.dotGeneral_apply]
  exact Finset.sum_congr rfl fun k _ => by rw [hx0 p k r hi0, hx1 k s]

/-- The first operand's block at point `t` is rows `5000 t …` of the first operand: a block's coordinate in the array
    is the block index times the block's extent plus the coordinate inside the block. -/
theorem lhs_block1 (V : (c : Dev nD) → (b : Ref sig .tc) → Buf (Elt Ideal) ((c : Thread nD τ).loc b)) (c : Dev nD)
    (t : Fin cfg1.N) (p : Fin 5000) (k : Fin 128) (r : Fin 50000) (hr : r.val = t.val * 5000 + p.val) :
    (Gen.iblk1 (F := Ideal) V c 0 t : Vec Ideal S5000x128 .f32) (ix2 p k)
      = (V c main_v52 : S50000x128.Idx → EReal) (ix2 r k) := by
  obtain ⟨e0, e1, -, -, -, -⟩ := block_index1 t
  unfold Gen.iblk1
  rw [View.read_apply]
  show V c main_v52 _ = V c main_v52 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The second operand's block at every point is the whole second operand. -/
theorem rhs_block1 (V : (c : Dev nD) → (b : Ref sig .tc) → Buf (Elt Ideal) ((c : Thread nD τ).loc b)) (c : Dev nD)
    (t : Fin cfg1.N) (k : Fin 128) (q : Fin 128) :
    (Gen.iblk1 (F := Ideal) V c 1 t : Vec Ideal S128x128 .f32) (ix2 k q)
      = (V c main_arg4 : S128x128.Idx → EReal) (ix2 k q) := by
  obtain ⟨-, -, e2, e3, -, -⟩ := block_index1 t
  unfold Gen.iblk1
  rw [View.read_apply]
  show V c main_arg4 _ = V c main_arg4 _
  congr 1
  funext a
  apply Fin.ext
  match a with
  | ⟨0, _⟩ => show win1_1.index t (0 : Fin 2) * 128 + 1 * k.val = k.val; rw [e2]; omega
  | ⟨1, _⟩ => show win1_1.index t (1 : Fin 2) * 128 + 1 * q.val = q.val; rw [e3]; omega

/-- WHAT POINT `t` WRITES BACK is block `t` — rows `5000 t …` — of the whole product of the two operand arrays as the
    region finds them. -/
theorem flushed1_eq (w : DotDims.WF S50000x128 S128x128 S50000x128 [1] [0] [0] [1] [] [])
    (V : (c : Dev nD) → (b : Ref sig .tc) → Buf (Elt Ideal) ((c : Thread nD τ).loc b)) (c : Dev nD) (t : Fin cfg1.N) :
    (Gen.dat1 (F := Ideal) V c).flushed 2 t = ((cfg1.win 2).blk t).view.read (Elt Ideal)
      (Host.dotGeneral (F := Ideal) (φ₁ := .f32) (φ₂ := .f32) (⟨[1], [0], [0], [1], [], [], w⟩ : DotDims S50000x128 S128x128 S50000x128) none
        (V c main_v52) (V c main_arg4) : FVec Ideal S50000x128 .f32) := by
  show (cfg1.win 2).cut (grid1.coords t) ((Gen.dat1 V c).after 2 t) = _
  rw [Gen.after1_2]
  unfold Gen.out1_2
  rw [View.canon_unit_zero zero_offsets1]
  simp only [View.ld_unit_zero (S := S5000x128) zero_offsets1, View.ld_unit_zero (S := S128x128) zero_offsets1]
  obtain ⟨-, -, -, -, e4, e5⟩ := block_index1 t
  refine funext fun (j : S5000x128.Idx) => ?_
  obtain ⟨p, q, rfl⟩ : ∃ (p : Fin 5000) (q : Fin 128), j = ix2 p q := ⟨j 0, j 1, eq_ix2 j⟩
  show Gen.k1_pay1 (F := Ideal) (Gen.iblk1 V c 0 t) (Gen.iblk1 V c 1 t) (ix2 p q)
    = Host.dotGeneral (F := Ideal) (φ₁ := .f32) (φ₂ := .f32) (⟨[1], [0], [0], [1], [], [], w⟩ : DotDims S50000x128 S128x128 S50000x128) none
        (V c main_v52) (V c main_arg4) (((cfg1.win 2).blk t).view.emb (ix2 p q))
  refine block_entry1 w (V c main_v52) (V c main_arg4) (Gen.iblk1 V c 0 t) (Gen.iblk1 V c 1 t) t.val
    (fun p k r hr => lhs_block1 V c t p k r hr) (fun k q => rhs_block1 V c t k q) p q _ ?_ ?_
  · show win1_2.index t (0 : Fin 2) * 5000 + 1 * p.val = t.val * 5000 + p.val
    rw [e4]; omega
  · show win1_2.index t (1 : Fin 2) * 128 + 1 * q.val = q.val
    rw [e5]; omega

/-- An index of the output array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v53).slice (win1_2.rect t)).set ↔ _
  rw [View.set_slice_whole, Rect.mem_set_unit]
  exact Iff.rfl

/-- Every index of the output array is in some point's block: row `r` is in the block of point `r / 5000`, because
    50000 = 10 · 5000 and a block spans all 128 columns. -/
theorem cover1 (i : S50000x128.Idx) :
    ∃ t : Fin cfg1.N, (cfg1.win 2).flush t = true ∧ i ∈ ((cfg1.win 2).blk t).view.set := by
  have hN : cfg1.N = 10 := Gen.N_1
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨-, -, -, -, e4, e5⟩ := block_index1 t
  refine ⟨t, Gen.flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    rw [e4, ht]; omega
  | ⟨1, _⟩ =>
    show win1_2.index t (1 : Fin 2) * 128 ≤ (i 1).val ∧ (i 1).val < win1_2.index t (1 : Fin 2) * 128 + 128
    rw [e5]; omega

/-- THE ARRAY the region leaves is the whole product of its two operand arrays as the region finds them. -/
theorem final1 (w : DotDims.WF S50000x128 S128x128 S50000x128 [1] [0] [0] [1] [] [])
    (V : (c : Dev nD) → (b : Ref sig .tc) → Buf (Elt Ideal) ((c : Thread nD τ).loc b)) (c : Dev nD) :
    (Gen.dat1 (F := Ideal) V c).arrAt 2 cfg1.N
      = Host.dotGeneral (F := Ideal) (φ₁ := .f32) (φ₂ := .f32) (⟨[1], [0], [0], [1], [], [], w⟩ : DotDims S50000x128 S128x128 S50000x128) none
          (V c main_v52) (V c main_arg4) :=
  (Gen.dat1 (F := Ideal) V c).arrAt_eq_of_cover 2 _ (fun t _ => flushed1_eq w V c t) cover1

end Cert.KernelIdeal.RowBlocks

end
-- ==== Proof.RowBlocks2.lean ====
/-
  The ten row blocks of the third tiled product are one whole matrix product.

  The region runs over ten grid points. At point `t` its body multiplies rows `5000 t … 5000 t + 4999` of the
  50000 × 128 first operand by the whole 128 × 64 second operand and writes the 5000 × 64 result back as rows
  `5000 t … 5000 t + 4999` of the output array. Entry `(p, q)` of the block written at point `t` is
  `∑ k, A (5000 t + p, k) * B (k, q)`, which is entry `(5000 t + p, q)` of the whole product `A · B`; and since
  50000 = 10 · 5000, every row `r` of the output lies in the block of point `r / 5000`. So after the ten points the
  output array is the whole product.
-/
import proofs.«128326_j47339129536599_1_alg».proof.Proof.BlockProduct
import proofs.«128326_j47339129536599_1_alg».proof.Proof.LibHostDotIx
import proofs.«128326_j47339129536599_1_alg».proof.Proof.Gen.KernelIdeal.Frame
import Idealize.ShloMosaic.Lib.Pipeline.Value
import Idealize.ShloMosaic.Lib.ValueIdx

noncomputable section

open scoped BigOperators

namespace Cert.KernelIdeal.RowBlocks

open Idealize.ShloMosaic Idealize.ShloMosaic.ValueIdx Idealize.ShloMosaic.TcCoe Idealize.SL.Sem Cert.KernelIdeal
open Idealize.ShloMosaic.Pipeline (Dat)

/-- The zero offsets of a whole-buffer access, as the constant function. -/
theorem zero_offsets2 : (![0, 0] : Fin 2 → Nat) = fun _ => 0 := funext fun a => by fin_cases a <;> rfl

/-- The printed index maps, decided over the ten points: the first operand's and the output's block index is
    `(t, 0)`, the second operand's is `(0, 0)`. -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `(p, q)` of the product of a block `x0` by `x1` is entry `i` of the whole product `A · B`, when `x0` is rows
    `5000 T …` of `A`, `x1` is `B`, and `i = (5000 T + p, q)`: both are `∑ k, A (5000 T + p, k) * B (k, q)`. -/
theorem block_entry2 (w : DotDims.WF S50000x128 S128x64 S50000x64 [1] [0] [0] [1] [] [])
    (A : FVec Ideal S50000x128 .f32) (B : FVec Ideal S128x64 .f32)
    (x0 : Vec Ideal S5000x128 .f32) (x1 : Vec Ideal S128x64 .f32) (T : Nat)
    (hx0 : ∀ (p : Fin 5000) (k : Fin 128) (r : Fin 50000), r.val = T * 5000 + p.val → x0 (ix2 p k) = A (ix2 r k))
    (hx1 : ∀ (k : Fin 128) (q : Fin 64), x1 (ix2 k q) = B (ix2 k q))
    (p : Fin 5000) (q : Fin 64) (i : S50000x64.Idx) (hi0 : (i 0).val = T * 5000 + p.val) (hi1 : (i 1).val = q.val) :
    Gen.k2_pay1 (F := Ideal) x0 x1 (ix2 p q)
      = Host.dotGeneral (F := Ideal) (φ₁ := .f32) (φ₂ := .f32) (⟨[1], [0], [0], [1], [], [], w⟩ : DotDims S50000x128 S128x64 S50000x64) none A B i := by
  obtain ⟨r, s, rfl⟩ : ∃ (r : Fin 50000) (s : Fin 64), i = ix2 r s := ⟨i 0, i 1, eq_ix2 i⟩
  obtain rfl : s = q := Fin.ext hi1
  rw [BlockProduct.pay2_apply, Cert.LibHostDotIx.dotGeneral_apply]
  exact Finset.sum_congr rfl fun k _ => by rw [hx0 p k r hi0, hx1 k s]

/-- The first operand's block at point `t` is rows `5000 t …` of the first operand: a block's coordinate in the array
    is the block index times the block's extent plus the coordinate inside the block. -/
theorem lhs_block2 (V : (c : Dev nD) → (b : Ref sig .tc) → Buf (Elt Ideal) ((c : Thread nD τ).loc b)) (c : Dev nD)
    (t : Fin cfg2.N) (p : Fin 5000) (k : Fin 128) (r : Fin 50000) (hr : r.val = t.val * 5000 + p.val) :
    (Gen.iblk2 (F := Ideal) V c 0 t : Vec Ideal S5000x128 .f32) (ix2 p k)
      = (V c main_v70 : S50000x128.Idx → EReal) (ix2 r k) := by
  obtain ⟨e0, e1, -, -, -, -⟩ := block_index2 t
  unfold Gen.iblk2
  rw [View.read_apply]
  show V c main_v70 _ = V c main_v70 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The second operand's block at every point is the whole second operand. -/
theorem rhs_block2 (V : (c : Dev nD) → (b : Ref sig .tc) → Buf (Elt Ideal) ((c : Thread nD τ).loc b)) (c : Dev nD)
    (t : Fin cfg2.N) (k : Fin 128) (q : Fin 64) :
    (Gen.iblk2 (F := Ideal) V c 1 t : Vec Ideal S128x64 .f32) (ix2 k q)
      = (V c main_arg6 : S128x64.Idx → EReal) (ix2 k q) := by
  obtain ⟨-, -, e2, e3, -, -⟩ := block_index2 t
  unfold Gen.iblk2
  rw [View.read_apply]
  show V c main_arg6 _ = V c main_arg6 _
  congr 1
  funext a
  apply Fin.ext
  match a with
  | ⟨0, _⟩ => show win2_1.index t (0 : Fin 2) * 128 + 1 * k.val = k.val; rw [e2]; omega
  | ⟨1, _⟩ => show win2_1.index t (1 : Fin 2) * 64 + 1 * q.val = q.val; rw [e3]; omega

/-- WHAT POINT `t` WRITES BACK is block `t` — rows `5000 t …` — of the whole product of the two operand arrays as the
    region finds them. -/
theorem flushed2_eq (w : DotDims.WF S50000x128 S128x64 S50000x64 [1] [0] [0] [1] [] [])
    (V : (c : Dev nD) → (b : Ref sig .tc) → Buf (Elt Ideal) ((c : Thread nD τ).loc b)) (c : Dev nD) (t : Fin cfg2.N) :
    (Gen.dat2 (F := Ideal) V c).flushed 2 t = ((cfg2.win 2).blk t).view.read (Elt Ideal)
      (Host.dotGeneral (F := Ideal) (φ₁ := .f32) (φ₂ := .f32) (⟨[1], [0], [0], [1], [], [], w⟩ : DotDims S50000x128 S128x64 S50000x64) none
        (V c main_v70) (V c main_arg6) : FVec Ideal S50000x64 .f32) := by
  show (cfg2.win 2).cut (grid2.coords t) ((Gen.dat2 V c).after 2 t) = _
  rw [Gen.after2_2]
  unfold Gen.out2_2
  rw [View.canon_unit_zero zero_offsets2]
  simp only [View.ld_unit_zero (S := S5000x128) zero_offsets2, View.ld_unit_zero (S := S128x64) zero_offsets2]
  obtain ⟨-, -, -, -, e4, e5⟩ := block_index2 t
  refine funext fun (j : S5000x64.Idx) => ?_
  obtain ⟨p, q, rfl⟩ : ∃ (p : Fin 5000) (q : Fin 64), j = ix2 p q := ⟨j 0, j 1, eq_ix2 j⟩
  show Gen.k2_pay1 (F := Ideal) (Gen.iblk2 V c 0 t) (Gen.iblk2 V c 1 t) (ix2 p q)
    = Host.dotGeneral (F := Ideal) (φ₁ := .f32) (φ₂ := .f32) (⟨[1], [0], [0], [1], [], [], w⟩ : DotDims S50000x128 S128x64 S50000x64) none
        (V c main_v70) (V c main_arg6) (((cfg2.win 2).blk t).view.emb (ix2 p q))
  refine block_entry2 w (V c main_v70) (V c main_arg6) (Gen.iblk2 V c 0 t) (Gen.iblk2 V c 1 t) t.val
    (fun p k r hr => lhs_block2 V c t p k r hr) (fun k q => rhs_block2 V c t k q) p q _ ?_ ?_
  · show win2_2.index t (0 : Fin 2) * 5000 + 1 * p.val = t.val * 5000 + p.val
    rw [e4]; omega
  · show win2_2.index t (1 : Fin 2) * 64 + 1 * q.val = q.val
    rw [e5]; omega

/-- An index of the output array is in point `t`'s block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v71).slice (win2_2.rect t)).set ↔ _
  rw [View.set_slice_whole, Rect.mem_set_unit]
  exact Iff.rfl

/-- Every index of the output array is in some point's block: row `r` is in the block of point `r / 5000`, because
    50000 = 10 · 5000 and a block spans all 64 columns. -/
theorem cover2 (i : S50000x64.Idx) :
    ∃ t : Fin cfg2.N, (cfg2.win 2).flush t = true ∧ i ∈ ((cfg2.win 2).blk t).view.set := by
  have hN : cfg2.N = 10 := Gen.N_2
  have hi0 : (i 0).val < 50000 := (i 0).isLt
  have hi1 : (i 1).val < 64 := (i 1).isLt
  obtain ⟨t, ht⟩ : ∃ t : Fin cfg2.N, t.val = (i 0).val / 5000 := ⟨⟨(i 0).val / 5000, by rw [hN]; omega⟩, rfl⟩
  obtain ⟨-, -, -, -, e4, e5⟩ := block_index2 t
  refine ⟨t, Gen.flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 64 ≤ (i 1).val ∧ (i 1).val < win2_2.index t (1 : Fin 2) * 64 + 64
    rw [e5]; omega

/-- THE ARRAY the region leaves is the whole product of its two operand arrays as the region finds them. -/
theorem final2 (w : DotDims.WF S50000x128 S128x64 S50000x64 [1] [0] [0] [1] [] [])
    (V : (c : Dev nD) → (b : Ref sig .tc) → Buf (Elt Ideal) ((c : Thread nD τ).loc b)) (c : Dev nD) :
    (Gen.dat2 (F := Ideal) V c).arrAt 2 cfg2.N
      = Host.dotGeneral (F := Ideal) (φ₁ := .f32) (φ₂ := .f32) (⟨[1], [0], [0], [1], [], [], w⟩ : DotDims S50000x128 S128x64 S50000x64) none
          (V c main_v70) (V c main_arg6) :=
  (Gen.dat2 (F := Ideal) V c).arrAt_eq_of_cover 2 _ (fun t _ => flushed2_eq w V c t) cover2

end Cert.KernelIdeal.RowBlocks

end
-- ==== Proof.FoldBase.lean ====
/-
  The kernel program's buffers between its segments, read against the reference's stages.

  Three kinds of buffer matter after the graph structure has been computed: the edge sources and targets with their
  self-loops (`%3`, `%6`), the symmetric normalisation `dinv[src] · dinv[dst]` (`%34`), and the weight and bias arguments
  of the layers still to come. No later host operation and no matrix-product region writes any of them, so each keeps,
  through every later segment, the value it has when the first region is entered; that value is the reference's own
  stage of the same name, a function of the edge list alone. This module states that invariant and carries it across a
  host stretch (nothing in the stretch writes these buffers) and across a region (a region writes only its result array).
-/
import proofs.«128326_j47339129536599_1_alg».proof.Proof.Gen.KernelIdeal.Frame
import proofs.«128326_j47339129536599_1_alg».proof.Proof.RefReadP

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg) (c : Dev nD)

/-- The argument arrays as launched: node features, edge list, and the three layers' weights and biases. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)

/-- The buffers every later stretch reads and none writes, at the reference's stages: sources, targets and
    normalisation as functions of the edge list, and the later layers' weights and biases as launched. -/
structure Persist (V : Valuation τ sig (Elt F)) : Prop where
  src : V (Proc.devRef .tc main_v3) = Cert.ReferenceIdeal.ReadP.val_main_v3 (F := F) (A1 m c)
  dst : V (Proc.devRef .tc main_v6) = Cert.ReferenceIdeal.ReadP.val_main_v6 (F := F) (A1 m c)
  norm : V (Proc.devRef .tc main_v34) = Cert.ReferenceIdeal.ReadP.val_main_v34 (F := F) (A1 m c)
  b1 : V (Proc.devRef .tc main_arg3) = A3 m c
  w2 : V (Proc.devRef .tc main_arg4) = A4 m c
  b2 : V (Proc.devRef .tc main_arg5) = A5 m c
  w3 : V (Proc.devRef .tc main_arg6) = A6 m c
  b3 : V (Proc.devRef .tc main_arg7) = A7 m c

variable {m c}

/-- The first layer's aggregation and its relu write none of the persistent buffers. -/
theorem persist_host1 {V : Valuation τ sig (Elt F)} (h : Persist m c V) :
    Persist m c (StableHlo.after hostOps1_1 (StableHlo.after hostOps1 V)) where
  src := (show StableHlo.after hostOps1_1 (StableHlo.after hostOps1 V) (Proc.devRef .tc main_v3) = V (Proc.devRef .tc main_v3) from by
    dsimp only [hostOps1_1, hostOps1]; after_results_simp).trans h.src
  dst := (show StableHlo.after hostOps1_1 (StableHlo.after hostOps1 V) (Proc.devRef .tc main_v6) = V (Proc.devRef .tc main_v6) from by
    dsimp only [hostOps1_1, hostOps1]; after_results_simp).trans h.dst
  norm := (show StableHlo.after hostOps1_1 (StableHlo.after hostOps1 V) (Proc.devRef .tc main_v34) = V (Proc.devRef .tc main_v34) from by
    dsimp only [hostOps1_1, hostOps1]; after_results_simp).trans h.norm
  b1 := (show StableHlo.after hostOps1_1 (StableHlo.after hostOps1 V) (Proc.devRef .tc main_arg3) = V (Proc.devRef .tc main_arg3) from by
    dsimp only [hostOps1_1, hostOps1]; after_results_simp).trans h.b1
  w2 := (show StableHlo.after hostOps1_1 (StableHlo.after hostOps1 V) (Proc.devRef .tc main_arg4) = V (Proc.devRef .tc main_arg4) from by
    dsimp only [hostOps1_1, hostOps1]; after_results_simp).trans h.w2
  b2 := (show StableHlo.after hostOps1_1 (StableHlo.after hostOps1 V) (Proc.devRef .tc main_arg5) = V (Proc.devRef .tc main_arg5) from by
    dsimp only [hostOps1_1, hostOps1]; after_results_simp).trans h.b2
  w3 := (show StableHlo.after hostOps1_1 (StableHlo.after hostOps1 V) (Proc.devRef .tc main_arg6) = V (Proc.devRef .tc main_arg6) from by
    dsimp only [hostOps1_1, hostOps1]; after_results_simp).trans h.w3
  b3 := (show StableHlo.after hostOps1_1 (StableHlo.after hostOps1 V) (Proc.devRef .tc main_arg7) = V (Proc.devRef .tc main_arg7) from by
    dsimp only [hostOps1_1, hostOps1]; after_results_simp).trans h.b3

/-- The second layer's aggregation and its relu write none of the persistent buffers. -/
theorem persist_host2 {V : Valuation τ sig (Elt F)} (h : Persist m c V) :
    Persist m c (StableHlo.after hostOps2_1 (StableHlo.after hostOps2 V)) where
  src := (show StableHlo.after hostOps2_1 (StableHlo.after hostOps2 V) (Proc.devRef .tc main_v3) = V (Proc.devRef .tc main_v3) from by
    dsimp only [hostOps2_1, hostOps2]; after_results_simp).trans h.src
  dst := (show StableHlo.after hostOps2_1 (StableHlo.after hostOps2 V) (Proc.devRef .tc main_v6) = V (Proc.devRef .tc main_v6) from by
    dsimp only [hostOps2_1, hostOps2]; after_results_simp).trans h.dst
  norm := (show StableHlo.after hostOps2_1 (StableHlo.after hostOps2 V) (Proc.devRef .tc main_v34) = V (Proc.devRef .tc main_v34) from by
    dsimp only [hostOps2_1, hostOps2]; after_results_simp).trans h.norm
  b1 := (show StableHlo.after hostOps2_1 (StableHlo.after hostOps2 V) (Proc.devRef .tc main_arg3) = V (Proc.devRef .tc main_arg3) from by
    dsimp only [hostOps2_1, hostOps2]; after_results_simp).trans h.b1
  w2 := (show StableHlo.after hostOps2_1 (StableHlo.after hostOps2 V) (Proc.devRef .tc main_arg4) = V (Proc.devRef .tc main_arg4) from by
    dsimp only [hostOps2_1, hostOps2]; after_results_simp).trans h.w2
  b2 := (show StableHlo.after hostOps2_1 (StableHlo.after hostOps2 V) (Proc.devRef .tc main_arg5) = V (Proc.devRef .tc main_arg5) from by
    dsimp only [hostOps2_1, hostOps2]; after_results_simp).trans h.b2
  w3 := (show StableHlo.after hostOps2_1 (StableHlo.after hostOps2 V) (Proc.devRef .tc main_arg6) = V (Proc.devRef .tc main_arg6) from by
    dsimp only [hostOps2_1, hostOps2]; after_results_simp).trans h.w3
  b3 := (show StableHlo.after hostOps2_1 (StableHlo.after hostOps2 V) (Proc.devRef .tc main_arg7) = V (Proc.devRef .tc main_arg7) from by
    dsimp only [hostOps2_1, hostOps2]; after_results_simp).trans h.b3

variable {ρ}

/-- Region 0 writes only its result array. -/
theorem persist_region0 (h : Persist m c (W3 m ρ c)) : Persist m c (W4 m ρ c) where
  src := (W4_of_ne m ρ c main_v3 (by decide)).trans h.src
  dst := (W4_of_ne m ρ c main_v6 (by decide)).trans h.dst
  norm := (W4_of_ne m ρ c main_v34 (by decide)).trans h.norm
  b1 := (W4_of_ne m ρ c main_arg3 (by decide)).trans h.b1
  w2 := (W4_of_ne m ρ c main_arg4 (by decide)).trans h.w2
  b2 := (W4_of_ne m ρ c main_arg5 (by decide)).trans h.b2
  w3 := (W4_of_ne m ρ c main_arg6 (by decide)).trans h.w3
  b3 := (W4_of_ne m ρ c main_arg7 (by decide)).trans h.b3

/-- Region 1 writes only its result array (its second operand, the second weight, is an input window's array: unchanged). -/
theorem persist_region1 (h : Persist m c (W6 m ρ c)) : Persist m c (W7 m ρ c) where
  src := (W7_of_ne m ρ c main_v3 (by decide)).trans h.src
  dst := (W7_of_ne m ρ c main_v6 (by decide)).trans h.dst
  norm := (W7_of_ne m ρ c main_v34 (by decide)).trans h.norm
  b1 := (W7_of_ne m ρ c main_arg3 (by decide)).trans h.b1
  w2 := ((W7_arr m ρ c 1).trans (((dat1 (V6 m ρ) c).arrAt_in 1 rfl _).trans (A_eq1 (V6 m ρ) c 1))).trans h.w2
  b2 := (W7_of_ne m ρ c main_arg5 (by decide)).trans h.b2
  w3 := (W7_of_ne m ρ c main_arg6 (by decide)).trans h.w3
  b3 := (W7_of_ne m ρ c main_arg7 (by decide)).trans h.b3

/-- Region 2 writes only its result array (its second operand, the third weight, is an input window's array: unchanged). -/
theorem persist_region2 (h : Persist m c (W9 m ρ c)) : Persist m c (W10 m ρ c) where
  src := (W10_of_ne m ρ c main_v3 (by decide)).trans h.src
  dst := (W10_of_ne m ρ c main_v6 (by decide)).trans h.dst
  norm := (W10_of_ne m ρ c main_v34 (by decide)).trans h.norm
  b1 := (W10_of_ne m ρ c main_arg3 (by decide)).trans h.b1
  w2 := (W10_of_ne m ρ c main_arg4 (by decide)).trans h.w2
  b2 := (W10_of_ne m ρ c main_arg5 (by decide)).trans h.b2
  w3 := ((W10_arr m ρ c 1).trans (((dat2 (V9 m ρ) c).arrAt_in 1 rfl _).trans (A_eq2 (V9 m ρ) c 1))).trans h.w3
  b3 := (W10_of_ne m ρ c main_arg7 (by decide)).trans h.b3

end Cert.KernelIdeal.Fold

end
-- ==== Proof.FoldEntry.lean ====
/-
  The buffers at the first region's entry.

  Before the first matrix product the program only builds the graph structure: it appends the self-loops `0 … n-1` to
  the edge sources and targets, counts each node's in-degree by a scatter-add of ones, takes `dinv = deg^(-1/2)` where
  `deg > 0` and `0` elsewhere, and forms `norm = dinv[src] · dinv[dst]` (negative indices wrapped by `+ n`). Read through
  the fold of these forty-seven host operations, the three buffers hold exactly the reference's stages of the same
  names, and no argument array has been written.
-/
import proofs.«128326_j47339129536599_1_alg».proof.Proof.FoldBase

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]

/-! ## No argument array is written by the structure's operations -/

set_option maxHeartbeats 2000000 in
/-- The forty-seven operations write none of the argument arrays: `%arg0` keeps its contents, whatever they are. -/
theorem keep_arg0 (V : Valuation τ sig (Elt F)) :
    StableHlo.after hostOps0_2 (StableHlo.after hostOps0_1 (StableHlo.after hostOps0 V)) (Proc.devRef .tc main_arg0)
      = V (Proc.devRef .tc main_arg0) := by
  dsimp only [hostOps0_2, hostOps0_1, hostOps0]; after_results_simp

set_option maxHeartbeats 2000000 in
/-- The forty-seven operations write none of the argument arrays: `%arg2` keeps its contents, whatever they are. -/
theorem keep_arg2 (V : Valuation τ sig (Elt F)) :
    StableHlo.after hostOps0_2 (StableHlo.after hostOps0_1 (StableHlo.after hostOps0 V)) (Proc.devRef .tc main_arg2)
      = V (Proc.devRef .tc main_arg2) := by
  dsimp only [hostOps0_2, hostOps0_1, hostOps0]; after_results_simp

set_option maxHeartbeats 2000000 in
/-- The forty-seven operations write none of the argument arrays: `%arg3` keeps its contents, whatever they are. -/
theorem keep_arg3 (V : Valuation τ sig (Elt F)) :
    StableHlo.after hostOps0_2 (StableHlo.after hostOps0_1 (StableHlo.after hostOps0 V)) (Proc.devRef .tc main_arg3)
      = V (Proc.devRef .tc main_arg3) := by
  dsimp only [hostOps0_2, hostOps0_1, hostOps0]; after_results_simp

set_option maxHeartbeats 2000000 in
/-- The forty-seven operations write none of the argument arrays: `%arg4` keeps its contents, whatever they are. -/
theorem keep_arg4 (V : Valuation τ sig (Elt F)) :
    StableHlo.after hostOps0_2 (StableHlo.after hostOps0_1 (StableHlo.after hostOps0 V)) (Proc.devRef .tc main_arg4)
      = V (Proc.devRef .tc main_arg4) := by
  dsimp only [hostOps0_2, hostOps0_1, hostOps0]; after_results_simp

set_option maxHeartbeats 2000000 in
/-- The forty-seven operations write none of the argument arrays: `%arg5` keeps its contents, whatever they are. -/
theorem keep_arg5 (V : Valuation τ sig (Elt F)) :
    StableHlo.after hostOps0_2 (StableHlo.after hostOps0_1 (StableHlo.after hostOps0 V)) (Proc.devRef .tc main_arg5)
      = V (Proc.devRef .tc main_arg5) := by
  dsimp only [hostOps0_2, hostOps0_1, hostOps0]; after_results_simp

set_option maxHeartbeats 2000000 in
/-- The forty-seven operations write none of the argument arrays: `%arg6` keeps its contents, whatever they are. -/
theorem keep_arg6 (V : Valuation τ sig (Elt F)) :
    StableHlo.after hostOps0_2 (StableHlo.after hostOps0_1 (StableHlo.after hostOps0 V)) (Proc.devRef .tc main_arg6)
      = V (Proc.devRef .tc main_arg6) := by
  dsimp only [hostOps0_2, hostOps0_1, hostOps0]; after_results_simp

set_option maxHeartbeats 2000000 in
/-- The forty-seven operations write none of the argument arrays: `%arg7` keeps its contents, whatever they are. -/
theorem keep_arg7 (V : Valuation τ sig (Elt F)) :
    StableHlo.after hostOps0_2 (StableHlo.after hostOps0_1 (StableHlo.after hostOps0 V)) (Proc.devRef .tc main_arg7)
      = V (Proc.devRef .tc main_arg7) := by
  dsimp only [hostOps0_2, hostOps0_1, hostOps0]; after_results_simp

variable (m : (ℓ : Loc nD τ sig) → Buf (Elt F) ℓ) (ρ : Dev nD → PrngReg) (c : Dev nD)

/-- The node features are as launched when the first region is entered. -/
theorem entry_arg0 : W3 m ρ c (Proc.devRef .tc main_arg0) = A0 m c := keep_arg0 (W0 m ρ c)

/-- So is the first layer's weight. -/
theorem entry_arg2 : W3 m ρ c (Proc.devRef .tc main_arg2) = A2 m c := keep_arg2 (W0 m ρ c)

/-! ## Sources, targets and normalisation -/

set_option maxHeartbeats 2000000 in
/-- The edge sources with the self-loops appended are the reference's `%3`. -/
theorem entry_src : W3 m ρ c (Proc.devRef .tc main_v3) = Cert.ReferenceIdeal.ReadP.val_main_v3 (F := F) (A1 m c) := by
  dsimp only [W3, W2, W1, hostOps0_2, hostOps0_1, hostOps0]; after_results_simp <;> rfl

set_option maxHeartbeats 2000000 in
/-- The edge targets with the self-loops appended are the reference's `%6`. -/
theorem entry_dst : W3 m ρ c (Proc.devRef .tc main_v6) = Cert.ReferenceIdeal.ReadP.val_main_v6 (F := F) (A1 m c) := by
  dsimp only [W3, W2, W1, hostOps0_2, hostOps0_1, hostOps0]; after_results_simp <;> rfl

set_option maxHeartbeats 4000000 in
/-- The normalisation `dinv[src] · dinv[dst]` is the reference's `%34`. -/
theorem entry_norm : W3 m ρ c (Proc.devRef .tc main_v34) = Cert.ReferenceIdeal.ReadP.val_main_v34 (F := F) (A1 m c) := by
  dsimp only [W3, W2, W1, hostOps0_2, hostOps0_1, hostOps0]; after_results_simp <;> rfl

/-- The persistent buffers at the first region's entry. -/
theorem entry_persist : Persist m c (W3 m ρ c) where
  src := entry_src m ρ c
  dst := entry_dst m ρ c
  norm := entry_norm m ρ c
  b1 := keep_arg3 (W0 m ρ c)
  w2 := keep_arg4 (W0 m ρ c)
  b2 := keep_arg5 (W0 m ρ c)
  w3 := keep_arg6 (W0 m ρ c)
  b3 := keep_arg7 (W0 m ρ c)

end Cert.KernelIdeal.Fold

end
-- ==== Proof.FoldTails.lean ====
/-
  One layer's aggregation, read over any buffer contents.

  After a layer's matrix product `h` the program gathers the rows `h[src]` (negative sources wrapped by `+ n`), scales
  row `e` by `norm e`, scatter-adds the scaled rows into the zero array at the targets, adds the bias to every row, and —
  after the first two layers — takes the maximum with zero. Whatever the buffers hold when such a stretch starts, its
  result is that expression of the five buffers it reads; when those hold the reference's stages, the result is the
  reference's next stage. The reference recomputes the normalisation in its second and third layers from the same
  sources and targets: the same operations of the same operands, so the same value.
-/
import proofs.«128326_j47339129536599_1_alg».proof.Proof.FoldBase

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]

variable {m : (ℓ : Loc nD τ sig) → Buf (Elt F) ℓ} {c : Dev nD}

/-- The reference's second normalisation is its first: the same operations of the same sources and targets. -/
theorem norm_second (x1 : (⟨Cert.ReferenceIdeal.S2x600000, .i32⟩ : BufTy).Contents (Elt F)) :
    Cert.ReferenceIdeal.ReadP.val_main_v80 (F := F) x1 = Cert.ReferenceIdeal.ReadP.val_main_v34 (F := F) x1 := rfl

/-- And so is its third. -/
theorem norm_third (x1 : (⟨Cert.ReferenceIdeal.S2x600000, .i32⟩ : BufTy).Contents (Elt F)) :
    Cert.ReferenceIdeal.ReadP.val_main_v126 (F := F) x1 = Cert.ReferenceIdeal.ReadP.val_main_v34 (F := F) x1 := rfl

/-- The first layer's aggregation, bias and relu of the reference's first product is the reference's `%52`. -/
theorem tail1 {V : Valuation τ sig (Elt F)} (h : Persist m c V)
    (hp : V (Proc.devRef .tc main_v35) = Cert.ReferenceIdeal.ReadP.val_main_v35 (F := F) (A0 m c) (A2 m c)) :
    StableHlo.after hostOps1_1 (StableHlo.after hostOps1 V) (Proc.devRef .tc main_v52)
      = Cert.ReferenceIdeal.ReadP.val_main_v52 (F := F) (A0 m c) (A1 m c) (A2 m c) (A3 m c) := by
  dsimp only [hostOps1_1, hostOps1]
  after_results_simp
  rw [hp, h.src, h.dst, h.norm, h.b1]
  rfl

/-- The second layer's aggregation, bias and relu of the reference's second product is the reference's `%98`. -/
theorem tail2 {V : Valuation τ sig (Elt F)} (h : Persist m c V)
    (hp : V (Proc.devRef .tc main_v53) = Cert.ReferenceIdeal.ReadP.val_main_v81 (F := F) (A0 m c) (A1 m c) (A2 m c) (A3 m c) (A4 m c)) :
    StableHlo.after hostOps2_1 (StableHlo.after hostOps2 V) (Proc.devRef .tc main_v70)
      = Cert.ReferenceIdeal.ReadP.val_main_v98 (F := F) (A0 m c) (A1 m c) (A2 m c) (A3 m c) (A4 m c) (A5 m c) := by
  dsimp only [hostOps2_1, hostOps2]
  after_results_simp
  rw [hp, h.src, h.dst, h.norm, h.b2, ← norm_second]
  rfl

/-- The third layer's aggregation and bias of the reference's third product is the reference's result. -/
theorem tail3 {V : Valuation τ sig (Elt F)} (h : Persist m c V)
    (hp : V (Proc.devRef .tc main_v71) = Cert.ReferenceIdeal.ReadP.val_main_v127 (F := F) (A0 m c) (A1 m c) (A2 m c) (A3 m c) (A4 m c) (A5 m c) (A6 m c)) :
    StableHlo.after hostOps3 V (Proc.devRef .tc main_v87)
      = Cert.ReferenceIdeal.ReadP.val_main_v143 (F := F) (A0 m c) (A1 m c) (A2 m c) (A3 m c) (A4 m c) (A5 m c) (A6 m c) (A7 m c) := by
  dsimp only [hostOps3]
  after_results_simp
  rw [hp, h.src, h.dst, h.norm, h.b3, ← norm_third]
  rfl

end Cert.KernelIdeal.Fold

end
-- ==== Proof.FoldResult.lean ====
/-
  The kernel program's result is the reference's last stage, given that each region leaves the whole matrix product.

  Walking the segments in order. At the first region's entry the node features and the first weight are as launched,
  so the region's result array is the reference's first product `x · W1`; the aggregation stretch turns it into the
  reference's `relu (Â (x W1) + b1)`, which the second region multiplies by `W2`; likewise through the second
  aggregation and the third region; the last aggregation gives the reference's result. Between the segments the
  sources, targets, normalisation and the remaining arguments persist.
-/
import proofs.«128326_j47339129536599_1_alg».proof.Proof.FoldEntry
import proofs.«128326_j47339129536599_1_alg».proof.Proof.FoldTails

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The hypotheses: after its ten grid points a region's result array holds the host's whole product of the two
    arrays the region read, whatever the buffers held when it was entered. -/
structure WholeProducts : Prop where
  first : ∀ (V : (c : Dev nD) → (b : Ref sig .tc) → Buf (Elt Ideal) ((c : Thread nD τ).loc b)) (c : Dev nD),
    (dat0 (F := Ideal) V c).arrAt 2 cfg0.N
      = Host.dotGeneral (F := Ideal) (φ₁ := .f32) (φ₂ := .f32) Cert.ReferenceIdeal.dot_S50000x128_S128x128_S50000x128_1_0_0_1_n_n none (V c main_arg0) (V c main_arg2)
  second : ∀ (V : (c : Dev nD) → (b : Ref sig .tc) → Buf (Elt Ideal) ((c : Thread nD τ).loc b)) (c : Dev nD),
    (dat1 (F := Ideal) V c).arrAt 2 cfg1.N
      = Host.dotGeneral (F := Ideal) (φ₁ := .f32) (φ₂ := .f32) Cert.ReferenceIdeal.dot_S50000x128_S128x128_S50000x128_1_0_0_1_n_n none (V c main_v52) (V c main_arg4)
  third : ∀ (V : (c : Dev nD) → (b : Ref sig .tc) → Buf (Elt Ideal) ((c : Thread nD τ).loc b)) (c : Dev nD),
    (dat2 (F := Ideal) V c).arrAt 2 cfg2.N
      = Host.dotGeneral (F := Ideal) (φ₁ := .f32) (φ₂ := .f32) Cert.ReferenceIdeal.dot_S50000x128_S128x64_S50000x64_1_0_0_1_n_n none (V c main_v70) (V c main_arg6)

/-- The persistent buffers at the second region's entry. -/
theorem persist6 : Persist m c (W6 m ρ c) := persist_host1 (persist_region0 (entry_persist m ρ c))

/-- The persistent buffers at the third region's entry. -/
theorem persist9 : Persist m c (W9 m ρ c) := persist_host2 (persist_region1 (persist6 m ρ c))

variable (hw : WholeProducts)
include hw

/-- After the first region its result array is the reference's first product. -/
theorem product1 : W4 m ρ c (Proc.devRef .tc main_v35) = Cert.ReferenceIdeal.ReadP.val_main_v35 (A0 m c) (A2 m c) := by
  have e0 : V3 m ρ c main_arg0 = A0 m c := entry_arg0 m ρ c
  have e2 : V3 m ρ c main_arg2 = A2 m c := entry_arg2 m ρ c
  refine (W4_arr m ρ c 2).trans ((hw.first (V3 m ρ) c).trans ?_)
  rw [e0, e2]
  rfl

/-- After the second region its result array is the reference's second product. -/
theorem product2 : W7 m ρ c (Proc.devRef .tc main_v53)
    = Cert.ReferenceIdeal.ReadP.val_main_v81 (A0 m c) (A1 m c) (A2 m c) (A3 m c) (A4 m c) := by
  have e52 : V6 m ρ c main_v52 = Cert.ReferenceIdeal.ReadP.val_main_v52 (A0 m c) (A1 m c) (A2 m c) (A3 m c) :=
    tail1 (persist_region0 (entry_persist m ρ c)) (product1 m ρ c hw)
  have e4 : V6 m ρ c main_arg4 = A4 m c := (persist6 m ρ c).w2
  refine (W7_arr m ρ c 2).trans ((hw.second (V6 m ρ) c).trans ?_)
  rw [e52, e4]
  rfl

/-- After the third region its result array is the reference's third product. -/
theorem product3 : W10 m ρ c (Proc.devRef .tc main_v71)
    = Cert.ReferenceIdeal.ReadP.val_main_v127 (A0 m c) (A1 m c) (A2 m c) (A3 m c) (A4 m c) (A5 m c) (A6 m c) := by
  have e70 : V9 m ρ c main_v70 = Cert.ReferenceIdeal.ReadP.val_main_v98 (A0 m c) (A1 m c) (A2 m c) (A3 m c) (A4 m c) (A5 m c) :=
    tail2 (persist_region1 (persist6 m ρ c)) (product2 m ρ c hw)
  have e6 : V9 m ρ c main_arg6 = A6 m c := (persist9 m ρ c).w3
  refine (W10_arr m ρ c 2).trans ((hw.third (V9 m ρ) c).trans ?_)
  rw [e70, e6]
  rfl

/-- THE RESULT: the last boundary's contents at the result buffer are the reference's last stage of the launched
    arguments. -/
theorem result_eq : W11 m ρ c (Proc.devRef .tc main_v87)
    = Cert.ReferenceIdeal.ReadP.val_main_v143 (A0 m c) (A1 m c) (A2 m c) (A3 m c) (A4 m c) (A5 m c) (A6 m c) (A7 m c) :=
  tail3 (persist_region2 (persist9 m ρ c)) (product3 m ρ c hw)

end Cert.KernelIdeal.Fold

end
-- ==== Proof.lean ====
/-
  A three-layer graph convolution: the tiled kernel program against its jnp reference, over the extended reals.

  Both programs compute `Â · relu(Â · relu(Â · (x W1) + b1) W2 + b2) W3 + b3`, where `Â` is the edge list with
  self-loops, weighted by the symmetric normalisation `deg^(-1/2)[src] · deg^(-1/2)[dst]`: per layer a matrix product, a
  gather of its rows at the edge sources, a scaling by the normalisation, a scatter-add at the edge targets and a bias.
  The programs agree operation for operation except in two places. The kernel program computes each product
  `h · W` in ten blocks of 5000 rows (a zero-accumulator matrix product per block, the operands narrowed to bf16 first —
  the identity on exact reals), where the reference computes one whole product; rows of a product depend only on the
  same rows of `h`, so the ten blocks are the whole product (Proof/RowBlocks0–2, over Proof/BlockProduct). And the
  kernel program computes the normalisation once where the reference recomputes it per layer from the same sources and
  targets (Proof/FoldTails). No law of the extended reals beyond this regrouping is used, so the inputs' finiteness is
  never opened.

  The kernel program's run with its result named is Proof/KernelRun; its buffers between segments are read against the
  reference's stages in Proof/FoldBase, FoldEntry, FoldTails and FoldResult; the reference's run and its stages are
  Proof/RefRunP and Proof/RefReadP. The ideal pass rewrote nothing, so `preserves` is trivial.
-/
import proofs.«128326_j47339129536599_1_alg».proof.Defs
import proofs.«128326_j47339129536599_1_alg».proof.Proof.Gen.Kernel
import proofs.«128326_j47339129536599_1_alg».proof.Proof.Gen.Kernel.Skeleton
import proofs.«128326_j47339129536599_1_alg».proof.Proof.Gen.Kernel.Launch
import proofs.«128326_j47339129536599_1_alg».proof.Proof.Gen.Kernel.Points
import proofs.«128326_j47339129536599_1_alg».proof.Proof.Gen.Kernel.Frame
import proofs.«128326_j47339129536599_1_alg».proof.Proof.Gen.KernelIdeal
import proofs.«128326_j47339129536599_1_alg».proof.Proof.Gen.KernelIdeal.Skeleton
import proofs.«128326_j47339129536599_1_alg».proof.Proof.Gen.KernelIdeal.Launch
import proofs.«128326_j47339129536599_1_alg».proof.Proof.Gen.KernelIdeal.Points
import proofs.«128326_j47339129536599_1_alg».proof.Proof.Gen.KernelIdeal.Frame
import proofs.«128326_j47339129536599_1_alg».proof.Proof.Gen.ReferenceIdeal
import proofs.«128326_j47339129536599_1_alg».proof.Proof.Gen.Pre_finite_inputs
import proofs.«128326_j47339129536599_1_alg».proof.Proof.KernelRun
import proofs.«128326_j47339129536599_1_alg».proof.Proof.RefRunP
import proofs.«128326_j47339129536599_1_alg».proof.Proof.RefReadP
import proofs.«128326_j47339129536599_1_alg».proof.Proof.RowBlocks0
import proofs.«128326_j47339129536599_1_alg».proof.Proof.RowBlocks1
import proofs.«128326_j47339129536599_1_alg».proof.Proof.RowBlocks2
import proofs.«128326_j47339129536599_1_alg».proof.Proof.FoldResult
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Each region's ten row blocks are the host's whole product, with the reference's own dimension records. -/
theorem wholeProducts : Cert.KernelIdeal.Fold.WholeProducts where
  first := fun V c => Cert.KernelIdeal.RowBlocks.final0 Cert.ReferenceIdeal.dot_S50000x128_S128x128_S50000x128_1_0_0_1_n_n.wf V c
  second := fun V c => Cert.KernelIdeal.RowBlocks.final1 Cert.ReferenceIdeal.dot_S50000x128_S128x128_S50000x128_1_0_0_1_n_n.wf V c
  third := fun V c => Cert.KernelIdeal.RowBlocks.final2 Cert.ReferenceIdeal.dot_S50000x128_S128x64_S50000x64_1_0_0_1_n_n.wf V c

/-- From memories agreeing on the arguments both idealized programs end with the reference's last stage of those
    arguments in their result buffers. -/
theorem algebraic : Cert.algebraic_KernelIdeal_ReferenceIdeal := by
  intro m ρ m' ρ' _ hagree
  refine ⟨fun c => Cert.ReferenceIdeal.ReadP.val_main_v143 (F := Ideal) (Cert.KernelIdeal.Fold.A0 m c) (Cert.KernelIdeal.Fold.A1 m c) (Cert.KernelIdeal.Fold.A2 m c) (Cert.KernelIdeal.Fold.A3 m c) (Cert.KernelIdeal.Fold.A4 m c) (Cert.KernelIdeal.Fold.A5 m c) (Cert.KernelIdeal.Fold.A6 m c) (Cert.KernelIdeal.Fold.A7 m c), ?_, ?_⟩
  · exact (θ_run Cert.KernelIdeal.defs _ _).mono
      (fun r h c => ⟨(h c).1.trans (Cert.KernelIdeal.Fold.result_eq m ρ c wholeProducts), (h c).2⟩)
      (Cert.KernelIdeal.RunResult.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v143_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
